-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S256x768 : Shape := ⟨2, ![256, 768]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_

variable [Facts]

def fn {F : FTy → Type} [FloatOps F] (main_arg0 : FVec F S16x1024x768 .f32) (main_arg1 : FVec F S256x768 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  main_v8
-- ==== Kernel.lean ====
abbrev S16x1024x768 : Shape := ⟨3, ![16, 1024, 768]⟩
abbrev S256x768 : Shape := ⟨2, ![256, 768]⟩
abbrev S16384x768 : Shape := ⟨2, ![16384, 768]⟩
abbrev S_ : Shape := ⟨0, ![]⟩
abbrev S256 : Shape := ⟨1, ![256]⟩
abbrev S1x256 : Shape := ⟨2, ![1, 256]⟩
abbrev S16384x256 : Shape := ⟨2, ![16384, 256]⟩
abbrev S2048x768 : Shape := ⟨2, ![2048, 768]⟩
abbrev S2048x256 : Shape := ⟨2, ![2048, 256]⟩
abbrev S2048 : Shape := ⟨1, ![2048]⟩
abbrev S2048x1 : Shape := ⟨2, ![2048, 1]⟩
abbrev S16x1024x256 : Shape := ⟨3, ![16, 1024, 256]⟩

abbrev nBuf : Space → Nat
  | .hbm => 10
  | .vmem => 6
  | .smem => 0
  | _ => 0

abbrev bufTy : (tb : Table) → Fin (tcTables nBuf tb) → BufTy
  | .hbm, ⟨0, _⟩ => ⟨S16x1024x768, .f32⟩
  | .hbm, ⟨1, _⟩ => ⟨S256x768, .f32⟩
  | .hbm, ⟨2, _⟩ => ⟨S16384x768, .f32⟩
  | .hbm, ⟨3, _⟩ => ⟨S256x768, .f32⟩
  | .hbm, ⟨4, _⟩ => ⟨S_, .f32⟩
  | .hbm, ⟨5, _⟩ => ⟨S256, .f32⟩
  | .hbm, ⟨6, _⟩ => ⟨S1x256, .f32⟩
  | .hbm, ⟨7, _⟩ => ⟨S256x768, .bf16⟩
  | .hbm, ⟨8, _⟩ => ⟨S16384x256, .f32⟩
  | .hbm, ⟨9, _⟩ => ⟨S16x1024x256, .f32⟩
  | .local _ .vmem, ⟨0, _⟩ => ⟨S2048x768, .f32⟩
  | .local _ .vmem, ⟨1, _⟩ => ⟨S2048x768, .f32⟩
  | .local _ .vmem, ⟨2, _⟩ => ⟨S256x768, .bf16⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x1024x768_S16384x768 : S16x1024x768.ShapeCasts S16384x768
  reducesTo_S256x768_S256_d1 : S256x768.ReducesTo [1] S256
  h_S_ : 0 < S_.numel
  shapeCasts_S256_S1x256 : S256.ShapeCasts S1x256
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2048x768_S2048 : S2048x768.Reduces [1] S2048
  shapeCasts_S2048_S2048x1 : S2048.ShapeCasts S2048x1
  broadcasts_S2048x1_S2048x256 : S2048x1.Broadcasts S2048x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S16384x256_S16x1024x256 : S16384x256.ShapeCasts S16x1024x256
  dot_S2048x768_S256x768_S2048x256_1_1_0_0_n_n_wf : DotDims.WF S2048x768 S256x768 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S16384x768.size a
  hwx0_0 : ∀ i : grid0.Coords, EltTy.bits .f32 = 32 ∨ (Rect.block (s := S16384x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .f32 = 32 ∨ (Rect.block (s := S16384x256) S2048x256.size (cc0_transform_3 i) (hinb0_3 i)).WholeWords (EltTy.packing .f32)

variable [Facts₀]

def dot_S2048x768_S256x768_S2048x256_1_1_0_0_n_n : DotDims S2048x768 S256x768 S2048x256 where
  lhsContracting := [1]
  rhsContracting := [1]
  lhsNonContracting := [0]
  rhsNonContracting := [0]
  lhsBatch := []
  rhsBatch := []
  wf := dot_S2048x768_S256x768_S2048x256_1_1_0_0_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x768 : Shape := ⟨3, ![16, 1024, 768]⟩
abbrev S256x768 : Shape := ⟨2, ![256, 768]⟩
abbrev S_ : Shape := ⟨0, ![]⟩
abbrev S16x1024 : Shape := ⟨2, ![16, 1024]⟩
abbrev S16x1024x1 : Shape := ⟨3, ![16, 1024, 1]⟩
abbrev S256 : Shape := ⟨1, ![256]⟩
abbrev S16x1024x256 : Shape := ⟨3, ![16, 1024, 256]⟩
abbrev S1x1x256 : Shape := ⟨3, ![1, 1, 256]⟩

abbrev nBuf : Space → Nat
  | .hbm => 18
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S256x768, .f32⟩
  | .hbm, ⟨2, _⟩ => ⟨S16x1024x768, .f32⟩
  | .hbm, ⟨3, _⟩ => ⟨S_, .f32⟩
  | .hbm, ⟨4, _⟩ => ⟨S16x1024, .f32⟩
  | .hbm, ⟨5, _⟩ => ⟨S16x1024x1, .f32⟩
  | .hbm, ⟨6, _⟩ => ⟨S256x768, .f32⟩
  | .hbm, ⟨7, _⟩ => ⟨S_, .f32⟩
  | .hbm, ⟨8, _⟩ => ⟨S256, .f32⟩
  | .hbm, ⟨9, _⟩ => ⟨S16x1024x256, .f32⟩
  | .hbm, ⟨10, _⟩ => ⟨S1x1x256, .f32⟩
  | .hbm, ⟨11, _⟩ => ⟨S16x1024x256, .f32⟩
  | .hbm, ⟨12, _⟩ => ⟨S16x1024x256, .f32⟩
  | .hbm, ⟨13, _⟩ => ⟨S16x1024x256, .f32⟩
  | .hbm, ⟨14, _⟩ => ⟨S_, .f32⟩
  | .hbm, ⟨15, _⟩ => ⟨S16x1024x256, .f32⟩
  | .hbm, ⟨16, _⟩ => ⟨S16x1024x256, .f32⟩
  | .hbm, ⟨17, _⟩ => ⟨S16x1024x256, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16x1024x768_S16x1024_d2 : S16x1024x768.ReducesTo [2] S16x1024
  h_S_ : 0 < S_.numel
  bcast_S16x1024_S16x1024x1_0_1 : S16x1024.BroadcastsInDim S16x1024x1 (![0, 1] : Fin 2 → Fin S16x1024x1.rank)
  reducesTo_S256x768_S256_d1 : S256x768.ReducesTo [1] S256
  bcast_S256_S1x1x256_2 : S256.BroadcastsInDim S1x1x256 (![2] : Fin 1 → Fin S1x1x256.rank)
  bcast_S16x1024x1_S16x1024x256_0_1_2 : S16x1024x1.BroadcastsInDim S16x1024x256 (![0, 1, 2] : Fin 3 → Fin S16x1024x256.rank)
  bcast_S1x1x256_S16x1024x256_0_1_2 : S1x1x256.BroadcastsInDim S16x1024x256 (![0, 1, 2] : Fin 3 → Fin S16x1024x256.rank)
  bcast_S_S16x1024x256 : S_.BroadcastsInDim S16x1024x256 (![] : Fin 0 → Fin S16x1024x256.rank)
  dot_S16x1024x768_S256x768_S16x1024x256_2_1_01_0_n_n_wf : DotDims.WF S16x1024x768 S256x768 S16x1024x256 [2] [1] [0, 1] [0] [] []

variable [Facts₀]

def dot_S16x1024x768_S256x768_S16x1024x256_2_1_01_0_n_n : DotDims S16x1024x768 S256x768 S16x1024x256 where
  lhsContracting := [2]
  rhsContracting := [1]
  lhsNonContracting := [0, 1]
  rhsNonContracting := [0]
  lhsBatch := []
  rhsBatch := []
  wf := dot_S16x1024x768_S256x768_S16x1024x256_2_1_01_0_n_n_wf

class Facts : Prop extends Facts₀ where

variable [Facts]
-- ==== Proof.Spec.lean ====
/-
  The specification: squared Euclidean distances in their product form.
  For a batch of vectors x[b, s, ·] (768 coordinates each) and 256 prototypes p[q, ·], the entry at (b, s, q) is
      (Σ_d x[b,s,d]²  +  Σ_d p[q,d]²)  −  2 · Σ_d x[b,s,d] · p[q,d],
  read on the extended reals with the grouping above: the two squared norms are added first and twice the inner product
  is subtracted from their sum. Both programs compute exactly this expression; they differ only in how the rows are
  arranged (a flat list of 16384 rows cut into eight blocks of 2048 against a [16, 1024] grid of rows) and in float
  formats that the extended reals do not see. The literal 2.0 is kept as the word both programs print.
-/
import Idealize.ShloMosaic.PureOps.Ideal
import Idealize.ShloMosaic.PureOps.Ideal.Laws
import Idealize.ShloMosaic.Lib.ValueIdx

noncomputable section

namespace Cert.SqDist

open Idealize.ShloMosaic Idealize.ShloMosaic.ValueIdx

/-- The extended real the f32 word of `2.0` denotes. -/
abbrev two : EReal := Ideal.ofBits .f32 0x40000000#32

/-- The squared norm of row `(b, s)` of `X`: the sum of the squares of its 768 coordinates. -/
def rowSq (X : (⟨3, ![16, 1024, 768]⟩ : Shape).Idx → EReal) (b : Fin 16) (s : Fin 1024) : EReal :=
  ∑ k : Fin 768, X (ix3 b s k) * X (ix3 b s k)

/-- The squared norm of prototype `q`. -/
def protoSq (P : (⟨2, ![256, 768]⟩ : Shape).Idx → EReal) (q : Fin 256) : EReal :=
  ∑ k : Fin 768, P (ix2 q k) * P (ix2 q k)

/-- The inner product of row `(b, s)` of `X` with prototype `q`. -/
def inner (X : (⟨3, ![16, 1024, 768]⟩ : Shape).Idx → EReal) (P : (⟨2, ![256, 768]⟩ : Shape).Idx → EReal)
    (b : Fin 16) (s : Fin 1024) (q : Fin 256) : EReal :=
  ∑ k : Fin 768, X (ix3 b s k) * P (ix2 q k)

/-- The distance entry at `(b, s, q)`: the two squared norms added, twice the inner product subtracted. -/
def distAt (X : (⟨3, ![16, 1024, 768]⟩ : Shape).Idx → EReal) (P : (⟨2, ![256, 768]⟩ : Shape).Idx → EReal)
    (b : Fin 16) (s : Fin 1024) (q : Fin 256) : EReal :=
  (rowSq X b s + protoSq P q) - two * inner X P b s q

/-- The whole [16, 1024, 256] array of distances. -/
def dist (X : (⟨3, ![16, 1024, 768]⟩ : Shape).Idx → EReal) (P : (⟨2, ![256, 768]⟩ : Shape).Idx → EReal) :
    (⟨3, ![16, 1024, 256]⟩ : Shape).Idx → EReal :=
  fun i => distAt X P (i 0) (i 1) (i 2)

end Cert.SqDist

end
-- ==== Proof.RefSide.lean ====
/-
  The reference computes the specification. Its host program squares and sums each row of x over the last axis
  (starting the sum from the literal zero), does the same for each prototype, takes the contraction of x with the
  prototypes over the 768 coordinates, broadcasts the two norms to the [16, 1024, 256] result and forms
  (‖x‖² + ‖p‖²) − 2 · x·p. Read at an index (b, s, q), every broadcast just forgets or repeats a coordinate, so the
  entry is the specification's, once the zero the sums start from is dropped.
-/
import proofs.«167233_j50818053047012_2_alg».proof.Proof.Gen.ReferenceIdeal.Read
import proofs.«167233_j50818053047012_2_alg».proof.Proof.Spec

noncomputable section

namespace Cert.SqDist.RefSide

open Idealize.ShloMosaic Idealize.ShloMosaic.ValueIdx Cert.ReferenceIdeal Cert.ReferenceIdeal.Read

/-- The reference's last stage, as a function of the two argument arrays, is the array of distances. -/
theorem ref_eq (X : (⟨S16x1024x768, .f32⟩ : BufTy).Contents (Elt Ideal)) (P : (⟨S256x768, .f32⟩ : BufTy).Contents (Elt Ideal)) :
    val_main_v12 (F := Ideal) X P = dist X P := by
  funext i
  -- the index each broadcast chain reads: the row (b, s) for the x-norm, the prototype q for the p-norm
  have e1 : ∀ k : Fin 768, idx_main_v1 (idx_main_v2 (idx_main_v7 i)) k = ix3 (i 0) (i 1) k := fun k =>
    funext fun a => Fin.ext (by match a with | ⟨0, _⟩ => rfl | ⟨1, _⟩ => rfl | ⟨2, _⟩ => rfl)
  have e4 : ∀ k : Fin 768, idx_main_v4 (idx_main_v6 (idx_main_v8 i)) k = ix2 (i 2) k := fun k =>
    funext fun a => Fin.ext (by match a with | ⟨0, _⟩ => rfl | ⟨1, _⟩ => rfl)
  have el : ∀ k : Fin 768, lidx_main_v5 i k = ix3 (i 0) (i 1) k := fun k =>
    funext fun a => Fin.ext (by match a with | ⟨0, _⟩ => rfl | ⟨1, _⟩ => rfl | ⟨2, _⟩ => rfl)
  have er : ∀ k : Fin 768, ridx_main_v5 i k = ix2 (i 2) k := fun k =>
    funext fun a => Fin.ext (by match a with | ⟨0, _⟩ => rfl | ⟨1, _⟩ => rfl)
  rw [val_main_v12_apply, val_main_v9_apply, val_main_v7_apply, val_main_v2_apply, val_main_v1_apply,
    val_main_v8_apply, val_main_v6_apply, val_main_v4_apply, val_main_v11_apply, val_main_v10_apply, val_main_v5_apply]
  simp only [e1, e4, el, er, val_main_v0_apply, val_main_v3_apply, val_main_cst_apply, val_main_cst_0_apply,
    val_main_cst_1_apply, Ideal.mulf_def, Ideal.addf_def, Ideal.subf_def, Ideal.ofBits_def, Ideal.ofBits_zero_f32, zero_add]
  rfl

end Cert.SqDist.RefSide

end
-- ==== Proof.Payload.lean ====
/-
  One entry of the block the kernel body stores. The body holds a block of 2048 rows of x (768 coordinates each), all
  256 prototypes and the row of their squared norms, and stores
      (row sum of x² , repeated along the prototypes)  +  (the prototypes' norms, repeated along the rows)
        −  2 · (x-block times the transposed prototypes).
  At entry (r, q) the first term is the sum over the 768 coordinates of row r's squares (a lane reduction whose
  accumulator is the zero the sum leaves out), the second is the q-th norm, and the matrix product — taken into a zero
  accumulator, with both operands' last axes contracted — is the sum of the products of row r with prototype q. The
  change of format on the way into the matrix unit does nothing on the extended reals.
-/
import proofs.«167233_j50818053047012_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.SqDist.Body

open Idealize.ShloMosaic Idealize.ShloMosaic.ValueIdx Cert.KernelIdeal Cert.KernelIdeal.Gen

/-- A vector of 2048 row values, viewed as a column and repeated along 256 columns, reads its row's value. -/
theorem column_repeated (v : FVec Ideal S2048 .f32) (h1 : S2048.ShapeCasts S2048x1) (h2 : S2048x1.Broadcasts S2048x256)
    (r : Fin 2048) (q : Fin 256) :
    broadcastTo S2048x256 (shapeCast S2048x1 v h1) h2 (ix2 r q) = v (ix1 r) := by
  refine (broadcastTo_apply _ h2 (ix2 r q) (ix2 r (0 : Fin 1)) fun a => ?_).trans ?_
  · match a with
    | ⟨0, _⟩ => show r.val = if (2048 : Nat) = 1 then 0 else r.val; rw [if_neg (by decide)]
    | ⟨1, _⟩ => show 0 = if (1 : Nat) = 1 then 0 else q.val; rw [if_pos rfl]
  · refine shapeCast_apply v h1 _ (ix1 r) ?_
    rw [Shape.rowMajor_val_one, Shape.rowMajor_val_two]
    show r.val = r.val * 1 + 0
    omega

/-- The lane reduction of a [2048, 768] block at row `r` is the sum of that row's 768 entries. -/
theorem row_sum (y : FVec Ideal S2048x768 .f32) (h : S2048x768.Reduces [1] S2048) (hφ : FKind.Formats .f32)
    (hacc : (0x00000000#32 : BitVec 32) = 0x00000000#32) (r : Fin 2048) :
    multiReduction .add [1] S2048 y 0x00000000#32 h hφ hacc (ix1 r) = ∑ k : Fin 768, y (ix2 r k) := by
  refine (Ideal.multiReduction_add_single y 0x00000000#32 h hφ hacc (ix1 r)).trans ?_
  refine Finset.sum_congr rfl fun k _ => congrArg y ?_
  funext a
  apply Fin.ext
  match a with
  | ⟨0, _⟩ => rfl
  | ⟨1, _⟩ => rfl

/-- The matrix product's left operand index at output (i₀, i₁): its row is the output's row, -/
theorem lhs_row (i : S2048x256.Idx) (c : dot_S2048x768_S256x768_S2048x256_1_1_0_0_n_n.contr.Idx) :
    (dot_S2048x768_S256x768_S2048x256_1_1_0_0_n_n.lhsIdx i c 0).val = (i 0).val := by
  unfold DotDims.lhsIdx
  rw [dif_neg (show ¬(0 : Fin S2048x768.rank) ∈ dot_S2048x768_S256x768_S2048x256_1_1_0_0_n_n.lhsBatch by decide),
    dif_pos (show (0 : Fin S2048x768.rank) ∈ dot_S2048x768_S256x768_S2048x256_1_1_0_0_n_n.lhsNonContracting by decide)]
  rfl
/-- and its column is the contracted coordinate; -/
theorem lhs_col (i : S2048x256.Idx) (c : dot_S2048x768_S256x768_S2048x256_1_1_0_0_n_n.contr.Idx) :
    (dot_S2048x768_S256x768_S2048x256_1_1_0_0_n_n.lhsIdx i c 1).val = (c ⟨0, by decide⟩).val :=
  dot_S2048x768_S256x768_S2048x256_1_1_0_0_n_n.lhsIdx_val_of_single rfl i c
/-- the right operand's row is the output's column (the prototype), -/
theorem rhs_row (i : S2048x256.Idx) (c : dot_S2048x768_S256x768_S2048x256_1_1_0_0_n_n.contr.Idx) :
    (dot_S2048x768_S256x768_S2048x256_1_1_0_0_n_n.rhsIdx i c 0).val = (i 1).val := by
  unfold DotDims.rhsIdx
  rw [dif_neg (show ¬(0 : Fin S256x768.rank) ∈ dot_S2048x768_S256x768_S2048x256_1_1_0_0_n_n.rhsBatch by decide),
    dif_pos (show (0 : Fin S256x768.rank) ∈ dot_S2048x768_S256x768_S2048x256_1_1_0_0_n_n.rhsNonContracting by decide)]
  rfl
/-- and its column the contracted coordinate again. -/
theorem rhs_col (i : S2048x256.Idx) (c : dot_S2048x768_S256x768_S2048x256_1_1_0_0_n_n.contr.Idx) :
    (dot_S2048x768_S256x768_S2048x256_1_1_0_0_n_n.rhsIdx i c 1).val = (c ⟨0, by decide⟩).val :=
  dot_S2048x768_S256x768_S2048x256_1_1_0_0_n_n.rhsIdx_val_of_single rfl i c

/-- The matrix product of a [2048, 768] block with the [256, 768] prototypes over their last axes, into a zero
    accumulator, at (r, q): the sum over the 768 coordinates of the products. -/
theorem product_entry (l : FVec Ideal S2048x768 .bf16) (w : FVec Ideal S256x768 .bf16) (r : Fin 2048) (q : Fin 256) :
    matmul dot_S2048x768_S256x768_S2048x256_1_1_0_0_n_n none l w (constant S2048x256 .f32 0x00000000#32) (ix2 r q)
      = ∑ k : Fin 768, l (ix2 r k) * w (ix2 q k) := by
  refine (Ideal.matmul_constant_zero_apply dot_S2048x768_S256x768_S2048x256_1_1_0_0_n_n none l w (ix2 r q)).trans ?_
  rw [← Equiv.sum_comp (contrEquiv1 dot_S2048x768_S256x768_S2048x256_1_1_0_0_n_n 768 rfl rfl).symm]
  refine Finset.sum_congr rfl fun k _ => ?_
  have hk := contrEquiv1_symm_val dot_S2048x768_S256x768_S2048x256_1_1_0_0_n_n 768 rfl rfl k
  have el : dot_S2048x768_S256x768_S2048x256_1_1_0_0_n_n.lhsIdx (ix2 r q)
      ((contrEquiv1 dot_S2048x768_S256x768_S2048x256_1_1_0_0_n_n 768 rfl rfl).symm k) = ix2 r k :=
    funext fun a => Fin.ext (by
      match a with
      | ⟨0, _⟩ => exact lhs_row _ _
      | ⟨1, _⟩ => exact (lhs_col _ _).trans hk)
  have er : dot_S2048x768_S256x768_S2048x256_1_1_0_0_n_n.rhsIdx (ix2 r q)
      ((contrEquiv1 dot_S2048x768_S256x768_S2048x256_1_1_0_0_n_n 768 rfl rfl).symm k) = ix2 q k :=
    funext fun a => Fin.ext (by
      match a with
      | ⟨0, _⟩ => exact rhs_row _ _
      | ⟨1, _⟩ => exact (rhs_col _ _).trans hk)
  rw [el, er]

/-- THE STORED BLOCK AT AN ENTRY: for a block `x0` of rows, the prototypes `x1` and the row `x2` of their squared norms,
    entry (r, q) is (Σ_k x0[r,k]² + x2[0,q]) − 2 · Σ_k x0[r,k] · x1[q,k]. -/
theorem stored_entry (x0 : FVec Ideal S2048x768 .f32) (x1 : FVec Ideal S256x768 .bf16) (x2 : FVec Ideal S1x256 .f32)
    (r : Fin 2048) (q : Fin 256) :
    k0_pay1 (F := Ideal) x0 x1 x2 (ix2 r q)
      = ((∑ k : Fin 768, x0 (ix2 r k) * x0 (ix2 r k)) + x2 (ix2 (0 : Fin 1) q))
        - Ideal.ofBits .f32 0x40000000#32 * ∑ k : Fin 768, x0 (ix2 r k) * x1 (ix2 q k) := by
  unfold k0_pay1
  simp only [shapeCast_self]
  rw [subf_apply, addf_apply, mulf_apply, broadcast_apply, column_repeated, row_sum, broadcastTo_1b_ab_apply, product_entry]
  rfl

/-- The whole flat [16384, 256] result as one function of the arrays the region stages: `A` the 16384 rows, `W` the
    prototypes, `N` the row of the prototypes' squared norms. -/
def flat (A : S16384x768.Idx → EReal) (W : S256x768.Idx → EReal) (N : S1x256.Idx → EReal) : S16384x256.Idx → EReal := fun i =>
  ((∑ k : Fin 768, A (ix2 (i 0) k) * A (ix2 (i 0) k)) + N (ix2 (0 : Fin 1) (i 1)))
    - Ideal.ofBits .f32 0x40000000#32 * ∑ k : Fin 768, A (ix2 (i 0) k) * W (ix2 (i 1) k)

/-- A stored entry is the flat result's entry, whenever the block's row is the array's row (`h0`), the block's prototype
    the array's (`h1`) and the norm read is the same (`h2`). -/
theorem stored_is_flat (x0 : FVec Ideal S2048x768 .f32) (x1 : FVec Ideal S256x768 .bf16) (x2 : FVec Ideal S1x256 .f32)
    (A : S16384x768.Idx → EReal) (W : S256x768.Idx → EReal) (N : S1x256.Idx → EReal)
    (j : S2048x256.Idx) (i : S16384x256.Idx)
    (h0 : ∀ k : Fin 768, x0 (ix2 (j 0) k) = A (ix2 (i 0) k))
    (h1 : ∀ k : Fin 768, x1 (ix2 (j 1) k) = W (ix2 (i 1) k))
    (h2 : x2 (ix2 (0 : Fin 1) (j 1)) = N (ix2 (0 : Fin 1) (i 1))) :
    k0_pay1 (F := Ideal) x0 x1 x2 j = flat A W N i := by
  obtain ⟨r, q, rfl⟩ : ∃ (r : Fin 2048) (q : Fin 256), j = ix2 r q := ⟨j 0, j 1, eq_ix2 j⟩
  have h0' : ∀ k : Fin 768, x0 (ix2 r k) = A (ix2 (i 0) k) := h0
  have h1' : ∀ k : Fin 768, x1 (ix2 q k) = W (ix2 (i 1) k) := h1
  have h2' : x2 (ix2 (0 : Fin 1) q) = N (ix2 (0 : Fin 1) (i 1)) := h2
  rw [stored_entry]
  unfold flat
  simp only [h0', h1', h2']

end Cert.SqDist.Body

end
-- ==== Proof.Entry.lean ====
/-
  What the kernel's region finds in its three input arrays. Before the region the host program
    • lays the [16, 1024, 768] argument x out as 16384 rows of 768 (row b·1024 + s is x[b, s, ·]),
    • squares the prototypes, sums each one's 768 squares starting from the literal zero, and lays the 256 sums out as one row,
    • changes the prototypes' float format, which the extended reals do not see.
  Each is read here at an index given by coordinates.
-/
import proofs.«167233_j50818053047012_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.SqDist.Entry

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The argument x on core `c`, as a function of its three coordinates' index. -/
abbrev argX (c : Dev nD) : S16x1024x768.Idx → EReal := m ((c : Thread nD τ).loc main_arg0)
/-- The prototypes on core `c`. -/
abbrev argP (c : Dev nD) : S256x768.Idx → EReal := m ((c : Thread nD τ).loc main_arg1)
/-- The flat row array the region stages. -/
abbrev rowsV (c : Dev nD) : S16384x768.Idx → EReal := V m c main_v0
/-- The row of squared norms the region stages. -/
abbrev normsV (c : Dev nD) : S1x256.Idx → EReal := V m c main_v3
/-- The prototypes the region stages. -/
abbrev protosV (c : Dev nD) : S256x768.Idx → EReal := V m c main_v4

/-- The flat row array is the argument x re-laid in row-major order. -/
theorem rows_eq (c : Dev nD) :
    rowsV m c = shapeCast S16384x768 (argX m c) shapeCasts_S16x1024x768_S16384x768 := by
  show StableHlo.after hostOps0 (fun b => m (c, b)) (Proc.devRef .tc main_v0) = _
  after_results
  rfl

/-- Flat row `ρ` at coordinate `k` is x[ρ / 1024, ρ % 1024, k]. -/
theorem rows_apply (c : Dev nD) (ρ : Fin 16384) (k : Fin 768) :
    rowsV m c (ix2 ρ k)
      = argX m c (ix3 (⟨ρ.val / 1024, by have := ρ.isLt; omega⟩ : Fin 16) (⟨ρ.val % 1024, Nat.mod_lt _ (by decide)⟩ : Fin 1024) k) := by
  rw [rows_eq]
  refine shapeCast_apply (argX m c) _ _ _ ?_
  rw [Shape.rowMajor_val_three, Shape.rowMajor_val_two]
  show (ρ.val / 1024 * 1024 + ρ.val % 1024) * 768 + k.val = ρ.val * 768 + k.val
  have := Nat.div_add_mod ρ.val 1024
  omega

/-- The row of squared norms: each prototype's squares summed from the literal zero, laid out as one row. -/
theorem norms_eq (c : Dev nD) :
    normsV m c
      = shapeCast S1x256 (Host.reduceAdd (F := Ideal) (mulf (F := Ideal) (φ := .f32) (argP m c) (argP m c))
          (constant (F := Ideal) S_ .f32 0x00000000#32) reducesTo_S256x768_S256_d1 h_S_) shapeCasts_S256_S1x256 := by
  show StableHlo.after hostOps0 (fun b => m (c, b)) (Proc.devRef .tc main_v3) = _
  after_results
  rfl

/-- Its entry `q` is the sum of the squares of prototype `q`'s 768 coordinates. -/
theorem norms_apply (c : Dev nD) (q : Fin 256) :
    normsV m c (ix2 (0 : Fin 1) q) = ∑ k : Fin 768, argP m c (ix2 q k) * argP m c (ix2 q k) := by
  rw [norms_eq]
  generalize argP m c = W
  refine (shapeCast_a_1a_apply _ _ (0 : Fin 1) q).trans ?_
  simp only [Host.reduceAdd, Ideal.hostReduceAdd_def]
  rw [Ideal.hostReduceAdd_single reducesTo_S256x768_S256_d1 (by decide)]
  show Ideal.ofBits .f32 0x00000000#32 + _ = _
  rw [Ideal.ofBits_zero_f32, zero_add]
  refine Finset.sum_congr rfl fun k _ => ?_
  show W _ * W _ = W (ix2 q k) * W (ix2 q k)
  have e : ∀ h : S256x768.Reduces [1] S256, h.lift (ix1 q) k = ix2 q k := fun h =>
    funext fun a => Fin.ext (by match a with | ⟨0, _⟩ => rfl | ⟨1, _⟩ => rfl)
  rw [e]
  rfl

/-- The prototypes the region stages are the argument's after a change of float format, -/
theorem protos_eq (c : Dev nD) :
    protosV m c = truncf (F := Ideal) (φ := .f32) .bf16 (argP m c) bitsLt_bf16_f32 := by
  show StableHlo.after hostOps0 (fun b => m (c, b)) (Proc.devRef .tc main_v4) = _
  after_results

/-- which on the extended reals leaves every entry as it was. -/
theorem protos_apply (c : Dev nD) (i : S256x768.Idx) : protosV m c i = argP m c i := by
  rw [protos_eq]
  rfl

end Cert.SqDist.Entry

end
-- ==== Proof.Blocks.lean ====
/-
  From the eight blocks to the whole flat result. The grid has eight points; point t stages rows 2048·t … 2048·t + 2047
  of the flat row array together with all the prototypes and the whole row of norms, and writes back rows
  2048·t … 2048·t + 2047 of the [16384, 256] result. So what each point writes back is its block of ONE function of the
  staged arrays (the flat result), the eight blocks cover every row (row ρ lies in block ρ / 2048), and the array after
  the region is that function. Read at (ρ, q) through what the region found in its arrays, it is the distance entry of
  row (ρ / 1024, ρ % 1024) of x against prototype q.
-/
import proofs.«167233_j50818053047012_2_alg».proof.Proof.Payload
import proofs.«167233_j50818053047012_2_alg».proof.Proof.Entry
import proofs.«167233_j50818053047012_2_alg».proof.Proof.Spec

noncomputable section

namespace Cert.SqDist.Blocks

open Idealize.ShloMosaic Idealize.ShloMosaic.TcCoe Idealize.ShloMosaic.ValueIdx Idealize.SL.Sem
open Idealize.ShloMosaic.Pipeline (Dat)
open Cert.KernelIdeal Cert.KernelIdeal.Gen Cert.SqDist.Entry

variable (m : (ℓ : Loc nD τ sig) → Buf (Elt Ideal) ℓ)

theorem zero_offsets : (![0, 0] : Fin 2 → Nat) = fun _ => 0 := funext fun a => by fin_cases a <;> rfl

/-- Where each window's block sits at point `t`: the rows' window and the result's window are at block `t` of their first
    axis, every other block index is zero. Decided over the eight points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The flat [16384, 256] result as a function of what the region finds in its arrays. -/
abbrev result (c : Dev nD) : S16384x256.Idx → EReal := Body.flat (rowsV m c) (protosV m c) (normsV m c)

/-- WHAT POINT `t` WRITES BACK is block `t` of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero zero_offsets]
  simp only [View.ld_unit_zero (S := S2048x768) zero_offsets, View.ld_unit_zero (S := S256x768) zero_offsets,
    View.ld_unit_zero (S := S1x256) zero_offsets]
  obtain ⟨e00, e01, e10, e11, e20, e21, e30, e31⟩ := block_indices t
  funext j
  show k0_pay1 (F := Ideal) (iblk m c 0 t) (iblk m c 1 t) (iblk m c 2 t) j
    = Body.flat (rowsV m c) (protosV m c) (normsV m c) (((cfg0.win 3).blk t).view.emb j)
  refine Body.stored_is_flat (iblk m c 0 t) (iblk m c 1 t) (iblk m c 2 t) (rowsV m c) (protosV m c) (normsV m c) j
    (((cfg0.win 3).blk t).view.emb j) (fun k => ?_) (fun k => ?_) ?_
  · -- row (j 0) of the staged rows is row 2048·t + (j 0) of the flat row array
    show V m c main_v0 (((cfg0.win 0).blk t).view.emb (ix2 (j 0) k)) = V m c main_v0 (ix2 ((((cfg0.win 3).blk t).view.emb j) 0) k)
    refine congrArg (V m c main_v0) (funext fun a => Fin.ext ?_)
    match a with
    | ⟨0, _⟩ =>
      show win0_0.index t (0 : Fin 2) * 2048 + 1 * (j 0).val = win0_3.index t (0 : Fin 2) * 2048 + 1 * (j 0).val
      rw [e00, e30]
    | ⟨1, _⟩ =>
      show win0_0.index t (1 : Fin 2) * 768 + 1 * k.val = k.val
      rw [e01]; omega
  · -- the staged prototypes are all of them
    show V m c main_v4 (((cfg0.win 1).blk t).view.emb (ix2 (j 1) k)) = V m c main_v4 (ix2 ((((cfg0.win 3).blk t).view.emb j) 1) k)
    refine congrArg (V m c main_v4) (funext fun a => Fin.ext ?_)
    match a with
    | ⟨0, _⟩ =>
      show win0_1.index t (0 : Fin 2) * 256 + 1 * (j 1).val = win0_3.index t (1 : Fin 2) * 256 + 1 * (j 1).val
      rw [e10, e31]
    | ⟨1, _⟩ =>
      show win0_1.index t (1 : Fin 2) * 768 + 1 * k.val = k.val
      rw [e11]; omega
  · -- and so is the staged row of norms
    show V m c main_v3 (((cfg0.win 2).blk t).view.emb (ix2 (0 : Fin 1) (j 1))) = V m c main_v3 (ix2 (0 : Fin 1) ((((cfg0.win 3).blk t).view.emb j) 1))
    refine congrArg (V m c main_v3) (funext fun a => Fin.ext ?_)
    match a with
    | ⟨0, _⟩ =>
      show win0_2.index t (0 : Fin 2) * 1 + 1 * 0 = 0
      rw [e20]
    | ⟨1, _⟩ =>
      show win0_2.index t (1 : Fin 2) * 256 + 1 * (j 1).val = win0_3.index t (1 : Fin 2) * 256 + 1 * (j 1).val
      rw [e21, e31]

/-- An index of the flat result is in point `t`'s block iff each coordinate is in the block's range on its axis. -/
theorem mem_block (t : Fin cfg0.N) (i : S16384x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v5).slice (win0_3.rect t)).set ↔ _
  rw [View.set_slice_whole, Rect.mem_set_unit]
  exact Iff.rfl

/-- Every index of the flat result is in some point's block: row ρ is in block ρ / 2048. -/
theorem covered (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  have hN : cfg0.N = 8 := N_0
  have ht : (i 0).val / 2048 < cfg0.N := by rw [hN]; omega
  obtain ⟨-, -, -, -, -, -, e30, e31⟩ := block_indices ⟨(i 0).val / 2048, ht⟩
  refine ⟨⟨(i 0).val / 2048, ht⟩, flush0_3 _, ?_⟩
  rw [mem_block]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e30]
    show (i 0).val / 2048 * 2048 ≤ (i 0).val ∧ (i 0).val < (i 0).val / 2048 * 2048 + 2048
    omega
  | ⟨1, _⟩ =>
    show win0_3.index ⟨(i 0).val / 2048, ht⟩ (1 : Fin 2) * 256 ≤ (i 1).val
      ∧ (i 1).val < win0_3.index ⟨(i 0).val / 2048, ht⟩ (1 : Fin 2) * 256 + 256
    rw [e31]
    omega

/-- THE FLAT RESULT ARRAY after the region is `result`. -/
theorem final (c : Dev nD) : (dats m 0 c).arrAt 3 cfg0.N = result m c :=
  (dats m 0 c).arrAt_eq_of_cover 3 (result m c) (fun t _ => flushed_eq m c t) covered

/-- Entry (ρ, q) of the flat result is the distance entry of row (ρ / 1024, ρ % 1024) of x against prototype q. -/
theorem result_apply (c : Dev nD) (ρ : Fin 16384) (q : Fin 256) :
    result m c (ix2 ρ q)
      = distAt (argX m c) (argP m c) (⟨ρ.val / 1024, by have := ρ.isLt; omega⟩ : Fin 16)
          (⟨ρ.val % 1024, Nat.mod_lt _ (by decide)⟩ : Fin 1024) q := by
  have h1 : (∑ k : Fin 768, rowsV m c (ix2 ρ k) * rowsV m c (ix2 ρ k))
      = rowSq (argX m c) (⟨ρ.val / 1024, by have := ρ.isLt; omega⟩ : Fin 16) (⟨ρ.val % 1024, Nat.mod_lt _ (by decide)⟩ : Fin 1024) :=
    Finset.sum_congr rfl fun k _ => by rw [rows_apply]
  have h2 : (∑ k : Fin 768, rowsV m c (ix2 ρ k) * protosV m c (ix2 q k))
      = inner (argX m c) (argP m c) (⟨ρ.val / 1024, by have := ρ.isLt; omega⟩ : Fin 16) (⟨ρ.val % 1024, Nat.mod_lt _ (by decide)⟩ : Fin 1024) q :=
    Finset.sum_congr rfl fun k _ => by rw [rows_apply, protos_apply]
  have h3 : normsV m c (ix2 (0 : Fin 1) q) = protoSq (argP m c) q := norms_apply m c q
  show ((∑ k : Fin 768, rowsV m c (ix2 ρ k) * rowsV m c (ix2 ρ k)) + normsV m c (ix2 (0 : Fin 1) q))
      - Ideal.ofBits .f32 0x40000000#32 * ∑ k : Fin 768, rowsV m c (ix2 ρ k) * protosV m c (ix2 q k) = _
  rw [h1, h2, h3]
  rfl

end Cert.SqDist.Blocks

end
-- ==== Proof.KernelRun.lean ====
/-
  The kernel program's run, read as a value. After the region the host program re-lays the flat [16384, 256] result as
  [16, 1024, 256]: entry (b, s, q) is flat entry (b·1024 + s, q), and flat row b·1024 + s is row (b, s) of x — so the
  program's result is the array of distances of the specification, and its two arguments end as they were.
-/
import proofs.«167233_j50818053047012_2_alg».proof.Proof.Blocks
import Idealize.ShloMosaic.Lib.StableHlo.Run

noncomputable section

namespace Cert.SqDist.KernelRun

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.SqDist.Entry

variable (m : (ℓ : Loc nD τ sig) → Buf (Elt Ideal) ℓ) (ρ : Dev nD → PrngReg)

/-- What the host's last re-layout leaves in the program's result: the array of distances. -/
theorem tail_eq (c : Dev nD) :
    Pipeline.afterTail₀ cfgs (dats m) 0 (V0 m) [hostOps1] c main_v6 = dist (argX m c) (argP m c) := by
  have e : Pipeline.withArrays (cfgs 0).spec c (V0 m c) (fun w => (dats m 0 c).arrAt w (cfgs 0).N) (Proc.devRef .tc main_v5)
      = Blocks.result m c :=
    (Pipeline.withArrays_arr spec0 launch0.win.arr_inj c _ _ 3).trans (Blocks.final m c)
  unfold Pipeline.afterTail₀
  show StableHlo.after hostOps1 _ (Proc.devRef .tc main_v6) = _
  after_results
  funext i
  obtain ⟨b, s, q, rfl⟩ : ∃ (b : Fin 16) (s : Fin 1024) (q : Fin 256), i = ix3 b s q := ⟨i 0, i 1, i 2, eq_ix3 i⟩
  show shapeCast S16x1024x256 (Pipeline.withArrays (cfgs 0).spec c (V0 m c) (fun w => (dats m 0 c).arrAt w (cfgs 0).N)
      (Proc.devRef .tc main_v5)) shapeCasts_S16384x256_S16x1024x256 (ix3 b s q) = _
  rw [e]
  have hρ : b.val * 1024 + s.val < 16384 := by have := b.isLt; have := s.isLt; omega
  refine (shapeCast_apply (Blocks.result m c) _ (ix3 b s q) (ix2 (⟨b.val * 1024 + s.val, hρ⟩ : Fin 16384) q) ?_).trans ?_
  · rw [Shape.rowMajor_val_two, Shape.rowMajor_val_three]
    rfl
  · rw [Blocks.result_apply]
    show distAt (argX m c) (argP m c) _ _ q = distAt (argX m c) (argP m c) b s q
    congr 1
    · exact Fin.ext (by show (b.val * 1024 + s.val) / 1024 = b.val; have := s.isLt; omega)
    · exact Fin.ext (by show (b.val * 1024 + s.val) % 1024 = s.val; have := s.isLt; omega)

/-- THE RUN: every weakly fair execution of the kernel program terminates with its result at the array of distances of
    its two arguments, and the arguments unchanged. -/
theorem run : θ_run defs (onTc (τ := τ) (main (F := Ideal))) ⟨m, fun _ => 0, ρ⟩ fun r => ∀ c : Dev nD,
      r.2.mem ((c.tc : Thread nD τ).loc main_v6) = dist (argX m c) (argP m c)
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v6 (Pipeline.mem_restRefs_of main_v6 (by decide) (by decide))).trans (tail_eq m c),
      ((h c).2 main_arg1 (Pipeline.mem_restRefs_of main_arg1 (by decide) (by decide))).trans (W_main_arg1 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.SqDist.KernelRun

end
-- ==== Proof.lean ====
/-
  The claim: squared Euclidean distances from 16 × 1024 vectors to 256 prototypes, computed by a blocked kernel, against
  the plain array expression.
  Both programs form, at (b, s, q), (Σ_d x[b,s,d]² + Σ_d p[q,d]²) − 2 · Σ_d x[b,s,d] · p[q,d]. The kernel program lays x out
  as 16384 rows, computes the prototypes' norms once on the host, and runs over eight blocks of 2048 rows, each block
  forming its rows' norms by a lane reduction and the inner products on the matrix unit; the host then re-lays the
  [16384, 256] result as [16, 1024, 256]. The reference forms the same three sums as whole-array operations. On the
  extended reals the two agree entry by entry with no condition on the inputs: the sums are over the same 768 terms, the
  zero each host sum starts from is dropped, and the changes of float format are the identity — no rearrangement that
  would need finiteness is used. The three frame claims are the generated runs; no operation of the kernel was rewritten
  for its reading on the extended reals, so there is nothing to preserve beyond the text itself.
-/
import proofs.«167233_j50818053047012_2_alg».proof.Defs
import proofs.«167233_j50818053047012_2_alg».proof.Proof.Gen.Kernel
import proofs.«167233_j50818053047012_2_alg».proof.Proof.Gen.Kernel.Skeleton
import proofs.«167233_j50818053047012_2_alg».proof.Proof.Gen.Kernel.Launch
import proofs.«167233_j50818053047012_2_alg».proof.Proof.Gen.Kernel.Points
import proofs.«167233_j50818053047012_2_alg».proof.Proof.Gen.Kernel.Frame
import proofs.«167233_j50818053047012_2_alg».proof.Proof.Gen.KernelIdeal
import proofs.«167233_j50818053047012_2_alg».proof.Proof.Gen.KernelIdeal.Skeleton
import proofs.«167233_j50818053047012_2_alg».proof.Proof.Gen.KernelIdeal.Launch
import proofs.«167233_j50818053047012_2_alg».proof.Proof.Gen.KernelIdeal.Points
import proofs.«167233_j50818053047012_2_alg».proof.Proof.Gen.KernelIdeal.Frame
import proofs.«167233_j50818053047012_2_alg».proof.Proof.Gen.ReferenceIdeal
import proofs.«167233_j50818053047012_2_alg».proof.Proof.Gen.Pre_finite_inputs
import proofs.«167233_j50818053047012_2_alg».proof.Proof.Gen.ReferenceIdeal.Run
import proofs.«167233_j50818053047012_2_alg».proof.Proof.Gen.ReferenceIdeal.Read
import proofs.«167233_j50818053047012_2_alg».proof.Proof.RefSide
import proofs.«167233_j50818053047012_2_alg».proof.Proof.KernelRun
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => ⟨(h c).2.2.1, (h c).2.1⟩)
    (Cert.ReferenceIdeal.Value.run (F := Ideal) m ρ)

/-- On the extended reals, from memories that agree on x and the prototypes, both programs end with the array of
    distances of those arguments, and return the prototypes unchanged. -/
theorem algebraic : Cert.algebraic_KernelIdeal_ReferenceIdeal := by
  intro m ρ m' ρ' _ hagree
  refine ⟨fun c => Cert.SqDist.dist (Cert.SqDist.Entry.argX m c) (Cert.SqDist.Entry.argP m c),
    fun c => m ((c.tc : Thread Cert.KernelIdeal.nD Cert.KernelIdeal.τ).loc Cert.KernelIdeal.main_arg1),
    Cert.SqDist.KernelRun.run m ρ, ?_⟩
  refine (θ_run Cert.ReferenceIdeal.defs _ _).mono (fun _ h c => ⟨(h c).1.trans ?_, (h c).2.1.trans (hagree c).2, (h c).2.2.1, (h c).2.2.2⟩)
    (Cert.ReferenceIdeal.Value.run (F := Ideal) m' ρ')
  refine (Cert.ReferenceIdeal.Read.val_main_v12_eq _ _).trans ((Cert.SqDist.RefSide.ref_eq _ _).trans ?_)
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
